-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S4096x2 : Shape := ⟨2, ![4096, 2]⟩
abbrev S256x8192 : Shape := ⟨2, ![256, 8192]⟩
abbrev S256x2 : Shape := ⟨2, ![256, 2]⟩
abbrev S256x1 : Shape := ⟨2, ![256, 1]⟩
abbrev S256x1024 : Shape := ⟨2, ![256, 1024]⟩
abbrev S256 : Shape := ⟨1, ![256]⟩
abbrev S4096x1 : Shape := ⟨2, ![4096, 1]⟩
abbrev S4096 : Shape := ⟨1, ![4096]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x2, .f32⟩
  | .hbm, ⟨3, _⟩ => ⟨S4096x1, .f32⟩
  | .hbm, ⟨4, _⟩ => ⟨S4096, .f32⟩
  | .hbm, ⟨5, _⟩ => ⟨S4096x1, .f32⟩
  | .hbm, ⟨6, _⟩ => ⟨S4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x2, .f32⟩
  | .local _ .vmem, ⟨5, _⟩ => ⟨S256x2, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v2 : BitVec 32 := Scalar.muli c0_i32 c1024_i32
  v2
def k0_off1 (c0_i32 : BitVec 32) : Fin 2 → Nat :=
  let c0 : Index := 0#32
  let c1024_i32 : BitVec 32 := 1024#32
  let v2 : BitVec 32 := Scalar.muli c0_i32 c1024_i32
  let v3 : BitVec 32 := v2
  let v4 : Index := Scalar.indexCast v3
  ![0, v4.toNat]
def k0_mult2 : BitVec 32 :=
  let c1_i32 : BitVec 32 := 1#32
  let c1024_i32_4 : BitVec 32 := 1024#32
  let v14 : BitVec 32 := Scalar.muli c1_i32 c1024_i32_4
  v14
def k0_mult3 : BitVec 32 :=
  let c2_i32 : BitVec 32 := 2#32
  let c1024_i32_9 : BitVec 32 := 1024#32
  let v26 : BitVec 32 := Scalar.muli c2_i32 c1024_i32_9
  v26
def k0_mult4 : BitVec 32 :=
  let c3_i32 : BitVec 32 := 3#32
  let c1024_i32_14 : BitVec 32 := 1024#32
  let v38 : BitVec 32 := Scalar.muli c3_i32 c1024_i32_14
  v38
def k0_mult5 : BitVec 32 :=
  let c4_i32 : BitVec 32 := 4#32
  let c1024_i32_19 : BitVec 32 := 1024#32
  let v50 : BitVec 32 := Scalar.muli c4_i32 c1024_i32_19
  v50
def k0_mult6 : BitVec 32 :=
  let c5_i32 : BitVec 32 := 5#32
  let c1024_i32_24 : BitVec 32 := 1024#32
  let v62 : BitVec 32 := Scalar.muli c5_i32 c1024_i32_24
  v62
def k0_mult7 : BitVec 32 :=
  let c6_i32 : BitVec 32 := 6#32
  let c1024_i32_29 : BitVec 32 := 1024#32
  let v74 : BitVec 32 := Scalar.muli c6_i32 c1024_i32_29
  v74
def k0_mult8 : BitVec 32 :=
  let c7_i32 : BitVec 32 := 7#32
  let c1024_i32_34 : BitVec 32 := 1024#32
  let v86 : BitVec 32 := Scalar.muli c7_i32 c1024_i32_34
  v86
def k0_mult9 : BitVec 32 :=
  let c0_i32_42 : BitVec 32 := 0#32
  let c1024_i32_43 : BitVec 32 := 1024#32
  let v103 : BitVec 32 := Scalar.muli c0_i32_42 c1024_i32_43
  v103
def k0_mult10 : BitVec 32 :=
  let c1_i32_50 : BitVec 32 := 1#32
  let c1024_i32_51 : BitVec 32 := 1024#32
  let v130 : BitVec 32 := Scalar.muli c1_i32_50 c1024_i32_51
  v130
def k0_mult11 : BitVec 32 :=
  let c2_i32_58 : BitVec 32 := 2#32
  let c1024_i32_59 : BitVec 32 := 1024#32
  let v157 : BitVec 32 := Scalar.muli c2_i32_58 c1024_i32_59
  v157
def k0_mult12 : BitVec 32 :=
  let c3_i32_66 : BitVec 32 := 3#32
  let c1024_i32_67 : BitVec 32 := 1024#32
  let v184 : BitVec 32 := Scalar.muli c3_i32_66 c1024_i32_67
  v184
def k0_mult13 : BitVec 32 :=
  let c4_i32_74 : BitVec 32 := 4#32
  let c1024_i32_75 : BitVec 32 := 1024#32
  let v211 : BitVec 32 := Scalar.muli c4_i32_74 c1024_i32_75
  v211
def k0_mult14 : BitVec 32 :=
  let c5_i32_82 : BitVec 32 := 5#32
  let c1024_i32_83 : BitVec 32 := 1024#32
  let v238 : BitVec 32 := Scalar.muli c5_i32_82 c1024_i32_83
  v238
def k0_mult15 : BitVec 32 :=
  let c6_i32_90 : BitVec 32 := 6#32
  let c1024_i32_91 : BitVec 32 := 1024#32
  let v265 : BitVec 32 := Scalar.muli c6_i32_90 c1024_i32_91
  v265
def k0_mult16 : BitVec 32 :=
  let c7_i32_98 : BitVec 32 := 7#32
  let c1024_i32_99 : BitVec 32 := 1024#32
  let v292 : BitVec 32 := Scalar.muli c7_i32_98 c1024_i32_99
  v292
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S256x1024 : 0 < S256x1024.numel
  reduces_S256x1024_S256 : S256x1024.Reduces [1] S256
  shapeCasts_S256_S256x1 : S256.ShapeCasts S256x1
  broadcasts_S256x1_S256x1024 : S256x1.Broadcasts S256x1024
  concatenates_S256x1_S256x1_S256x2_d1 : Shape.Concatenates [S256x1, S256x1] S256x2 1
  inb_S256x2_S256x2_0_0 : ∀ a, (![0, 0] : Fin 2 → Nat) a + S256x2.size a ≤ S256x2.size a
  h_S256x2 : 0 < S256x2.numel
  slices_S4096x2_S4096x1_0_0 : S4096x2.Slices ![0, 0] S4096x1
  shapeCasts_S4096x1_S4096 : S4096x1.ShapeCasts S4096
  slices_S4096x2_S4096x1_0_1 : S4096x2.Slices ![0, 1] S4096x1
  reducesTo_S4096_S_d0 : S4096.ReducesTo [0] S_
  h_S_ : 0 < S_.numel
  hrank0 : 0 < grid0.rank
  k0_mult1_dvd : 1024 ∣ k0_mult1.toNat
  k0_off1_inb : ∀ (r : Fin 8), ∀ a, (k0_off1 (BitVec.ofNat 32 r.val)) a + S256x1024.size a ≤ S256x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S4096x2.size a
  hwx0_2 : ∀ i : grid0.Coords, EltTy.bits .f32 = 32 ∨ (Rect.block (s := S4096x2) S256x2.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096, .f32⟩
  | .hbm, ⟨27, _⟩ => ⟨S4096x8192, .f32⟩
  | .hbm, ⟨28, _⟩ => ⟨S_, .f32⟩
  | .hbm, ⟨29, _⟩ => ⟨S4096, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S4096x8192_S_d0_1 : S4096x8192.ReducesTo [0, 1] S_
  h_S_ : 0 < S_.numel
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  reducesTo_S4096_S_d0 : S4096.ReducesTo [0] S_

variable [Facts₀]

class Facts : Prop extends Facts₀ where

variable [Facts]
-- ==== Proof.Block.lean ====
/-
  What one grid point leaves in the output block, as a value.

  A block is 256 consecutive rows of the two argument arrays, each row 8192 entries long, held as eight chunks of 1024
  columns. For every row the body forms, chunk by chunk from zero, the row total of each argument and scales it by 2^-13
  (the row mean); then, again chunk by chunk from zero, the three totals of products of the centred entries
  (first with second, first with first, second with second) and the total of the squared differences of the raw entries.
  Column 0 of the output block is |s_xy / sqrt (s_xx * s_yy)| and column 1 the total of squared differences.
  The definitions below spell that out over the vector operations, for any float instance; `found_eq` says the staged
  output block after the body is exactly `blockOut` of the two input blocks.
-/
import proofs.«151630_j5050881540163_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Block

open Cert.KernelIdeal Cert.KernelIdeal.Gen

variable {F : FTy → Type} [FloatOps F]

/-- Chunk `q` of a block: columns 1024 q … 1024 q + 1023 of every row. -/
def chunk (x : Vec F S256x8192 .f32) (q : Fin 8) : Vec F S256x1024 .f32 :=
  View.ld x (Rect.unit (s := S256x8192) (k0_off1 (BitVec.ofNat 32 q.val)) S256x1024.size (k0_off1_inb q))

/-- The row totals of a 256 × 1024 array, kept as a column. -/
def rowTotal (v : FVec F S256x1024 .f32) : FVec F S256x1 .f32 :=
  shapeCast S256x1 (multiReduction .add [1] S256 v 0x00000000#32 reduces_S256x1024_S256 (.inl rfl) rfl) shapeCasts_S256_S256x1

/-- The zero column every accumulation starts from. -/
def zeroCol : FVec F S256x1 .f32 := broadcast S256x1 (Scalar.ofBits .f32 0x00000000#32)

/-- Eight row totals added one after the other onto the zero column. -/
def total8 (f : Fin 8 → FVec F S256x1024 .f32) : FVec F S256x1 .f32 :=
  addf (addf (addf (addf (addf (addf (addf (addf zeroCol (rowTotal (f 0))) (rowTotal (f 1))) (rowTotal (f 2))) (rowTotal (f 3)))
    (rowTotal (f 4))) (rowTotal (f 5))) (rowTotal (f 6))) (rowTotal (f 7))

/-- The row means: the row totals scaled by the word of 2^-13. -/
def rowMean (x : Vec F S256x8192 .f32) : FVec F S256x1 .f32 :=
  mulf (total8 (chunk x)) (broadcast S256x1 (Scalar.ofBits .f32 0x39000000#32))

/-- A chunk with its row's mean taken off every entry. -/
def centred (x : Vec F S256x8192 .f32) (q : Fin 8) : FVec F S256x1024 .f32 :=
  subf (chunk x q) (broadcastTo S256x1024 (rowMean x) broadcasts_S256x1_S256x1024)

/-- Per row, the total over the row of the products of the centred entries of `x` and of `y`. -/
def centredDot (x y : Vec F S256x8192 .f32) : FVec F S256x1 .f32 :=
  total8 fun q => mulf (centred x q) (centred y q)

/-- Per row, the total over the row of the squared differences of the raw entries. -/
def sqDiff (x y : Vec F S256x8192 .f32) : FVec F S256x1 .f32 :=
  total8 fun q => mulf (subf (chunk x q) (chunk y q)) (subf (chunk x q) (chunk y q))

/-- Per row, the absolute value of the correlation quotient. -/
def absCorr (x y : Vec F S256x8192 .f32) : FVec F S256x1 .f32 :=
  absf (divf (centredDot x y) (sqrt (mulf (centredDot x x) (centredDot y y))))

/-- The output block: column 0 the absolute correlation quotient, column 1 the total of squared differences. -/
def blockOut (x y : Vec F S256x8192 .f32) : FVec F S256x2 .f32 :=
  concatenate S256x2 1 [⟨S256x1, absCorr x y⟩, ⟨S256x1, sqDiff x y⟩] concatenates_S256x1_S256x1_S256x2_d1

theorem zero_offsets : (![0, 0] : Fin 2 → Nat) = fun _ => 0 := funext fun a => by fin_cases a <;> rfl

/-- The body's one store covers the output block, and what it stores — its payload over the sixteen chunk loads — is
    `blockOut` of the two input blocks: the same operations in the same order. -/
theorem found_eq (c : Dev nD) (i : grid0.Coords) (a1 : Memref sig .tc .vmem S256x8192 .f32) (h1 : a1.IsWhole)
    (a2 : Memref sig .tc .vmem S256x8192 .f32) (h2 : a2.IsWhole) (a3 : Memref sig .tc .vmem S256x2 .f32) (h3 : a3.IsWhole)
    (x0 x1 : Vec F S256x8192 .f32) :
    out0_A_2 c i a1 h1 a2 h2 a3 h3 x0 x1 = blockOut x0 x1 := by
  unfold out0_A_2
  rw [View.read_writes_eq_canon _ _ _ (cover0_A_2 c i a1 h1 a2 h2 a3 h3 x0 x1)]
  unfold kernelRun0_A
  dsimp only
  sl_unfold_words
  rw [View.canon_unit_zero zero_offsets]
  simp only [View.readAt_eq_ld, h1.read_unread, h2.read_unread]
  rfl

end Cert.KernelIdeal.Block

end
-- ==== Proof.RowStats.lean ====
/-
  Row statistics over the extended reals, and the two facts that join a chunked computation to a whole-row one.

  For two rows x, y of 8192 entries: the mean of a row is its total divided by 8192; the centred dot of x and y is the
  total of (x j - mean x) * (y j - mean y); the correlation quotient is the centred dot of x and y over the square root of
  the product of the centred dots of x with itself and y with itself, and we take its absolute value as max q (-q); the
  squared difference is the total of (x j - y j)^2.
  The two joining facts: multiplying by 2^-13 is dividing by 8192 on every extended real (infinities included), and a
  total over 8192 columns is the total over eight chunks of the totals over the 1024 columns of each chunk (addition of
  extended reals is commutative and associative, so no finiteness is needed).
-/
import Idealize.ShloMosaic.PureOps.Ideal
import Idealize.ShloMosaic.PureOps.Ideal.Laws
import Idealize.ShloMosaic.Lib.ValueIdx

noncomputable section

open scoped BigOperators

namespace Cert.RowStats

open Idealize.ShloMosaic Idealize.ShloMosaic.ValueIdx

/-! ## The two words -/

/-- The word 0x46000000 is 8192. -/
theorem word_8192 : Ideal.ofBits .f32 0x46000000#32 = ((8192 : ℝ) : EReal) := by
  simp [Ideal.ofBits, Ideal.ieee, -EReal.coe_mul]; norm_num

/-- The word 0x39000000 is 2^-13 = 1/8192. -/
theorem word_inv_8192 : Ideal.ofBits .f32 0x39000000#32 = ((1 / 8192 : ℝ) : EReal) := by
  simp [Ideal.ofBits, Ideal.ieee, -EReal.coe_mul]; norm_num

/-- Scaling by 2^-13 is dividing by 8192, on every extended real. -/
theorem scale_eq_div (s : EReal) :
    s * Ideal.ofBits .f32 0x39000000#32 = Ideal.div s (Ideal.ofBits .f32 0x46000000#32) := by
  rw [word_8192, word_inv_8192, Ideal.div_coe (by norm_num)]

/-! ## Chunks of a row -/

/-- Column `k` of chunk `q` is column 1024 q + k of the row. -/
def col (q : Fin 8) (k : Fin 1024) : Fin 8192 := ⟨1024 * q.val + k.val, by have := q.isLt; have := k.isLt; omega⟩

/-- A total over the row is the total over the eight chunks of each chunk's total. -/
theorem sum_chunks {M : Type*} [AddCommMonoid M] (g : Fin 8192 → M) :
    ∑ q : Fin 8, ∑ k : Fin 1024, g (col q k) = ∑ j : Fin 8192, g j := by
  rw [← Equiv.sum_comp (finProdFinEquiv : Fin 8 × Fin 1024 ≃ Fin (8 * 1024)) (g : Fin (8 * 1024) → M),
    Fintype.sum_prod_type]
  refine Finset.sum_congr rfl fun q _ => Finset.sum_congr rfl fun k _ => congrArg g (Fin.ext ?_)
  show 1024 * q.val + k.val = k.val + 1024 * q.val
  omega

/-- A total over the indices of a length-n vector is the total over its one coordinate. -/
theorem sum_idx1 {M : Type*} [AddCommMonoid M] {n : ℕ} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-! ## The statistics of a pair of rows -/

/-- The mean of a row: its total over 8192. -/
def mean (x : Fin 8192 → EReal) : EReal := Ideal.div (∑ j, x j) (Ideal.ofBits .f32 0x46000000#32)

/-- The centred dot of two rows. -/
def cdot (x y : Fin 8192 → EReal) : EReal := ∑ j, (x j - mean x) * (y j - mean y)

/-- The absolute value of the correlation quotient of two rows. -/
def absCorr (x y : Fin 8192 → EReal) : EReal :=
  max (Ideal.div (cdot x y) (Ideal.sqrt (cdot x x * cdot y y))) (-Ideal.div (cdot x y) (Ideal.sqrt (cdot x x * cdot y y)))

/-- The total of the squared differences of two rows. -/
def sqDiff (x y : Fin 8192 → EReal) : EReal := ∑ j, (x j - y j) * (x j - y j)

/-- Row `r` of a 4096 × 8192 array, or row `p` of a 256 × 8192 block. -/
abbrev row {a : ℕ} (A : (⟨2, ![a, 8192]⟩ : Shape).Idx → EReal) (r : Fin a) : Fin 8192 → EReal := fun j => A (ix2 r j)

/-- The per-row results as a 4096 × 2 array: column 0 the absolute correlation quotient, column 1 the squared difference. -/
def perRow (A B : (⟨2, ![4096, 8192]⟩ : Shape).Idx → EReal) : (⟨2, ![4096, 2]⟩ : Shape).Idx → EReal :=
  fun i => if (i 1).val = 0 then absCorr (row A (i 0)) (row B (i 0)) else sqDiff (row A (i 0)) (row B (i 0))

/-- The loss: the mean squared difference (total over 2^25) over the mean absolute correlation quotient (total over 4096). -/
def loss (A B : (⟨2, ![4096, 8192]⟩ : Shape).Idx → EReal) : EReal :=
  Ideal.div (Ideal.div (∑ r : Fin 4096, sqDiff (row A r) (row B r)) (Ideal.ofBits .f32 0x4C000000#32))
    (Ideal.div (∑ r : Fin 4096, absCorr (row A r) (row B r)) (Ideal.ofBits .f32 0x45800000#32))

end Cert.RowStats

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«151630_j5050881540163_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibInterleave.lean ====
/-
  Two equal-shaped pieces joined along an axis on which each has extent one, read at an index; and the two
  interleavings built from such a join by a pair of shape casts: along the last axis (entry `x` of the result is
  entry `x / 2` of the first piece when `x` is even and of the second when `x` is odd) and along the middle axis
  of a rank-3 array (row `y` of the result is row `y / 2` of the first or of the second piece by the parity of `y`).
  All of it for any element type and any extents.
-/
import Idealize.ShloMosaic.Lib.Pipeline.Value
import Idealize.ShloMosaic.Lib.ValueIdx

namespace Idealize.ShloMosaic.Interleave

open Idealize.ShloMosaic Idealize.ShloMosaic.ValueIdx

variable {α : Type}

/-- Two pieces of ONE shape `s` whose extent along axis `a` is 1, joined along `a`: at an index `j` the result is
    the first piece where `j`'s coordinate on `a` is 0 and the second piece otherwise (the coordinate is then 1), each
    read at the index `i` that agrees with `j` off the axis (on the axis `i` can only be 0). -/
theorem concatenate_unit_pair_apply {t s : Shape} (a : Fin t.rank) (x₁ x₂ : s.Idx → α)
    (h : Shape.Concatenates [s, s] t a) (j : t.Idx) (hr : s.rank = t.rank)
    (hs : s.size (a.cast hr.symm) = 1) (i : s.Idx)
    (hi : ∀ b : Fin s.rank, b.cast hr ≠ a → (i b).val = (j (b.cast hr)).val) :
    concatenate t a [⟨s, x₁⟩, ⟨s, x₂⟩] h j = if (j a).val = 0 then x₁ i else x₂ i := by
  have hi0 : (i (a.cast hr.symm)).val = 0 := by have := (i (a.cast hr.symm)).isLt; omega
  by_cases h0 : (j a).val = 0
  · rw [if_pos h0]
    refine concatenate_pair_apply_left a x₁ x₂ h j hr i fun b => ?_
    by_cases hb : b.cast hr = a
    · have eb : b = a.cast hr.symm := Fin.ext (by have := congrArg Fin.val hb; simpa using this)
      rw [eb, hi0]
      exact h0.symm
    · exact hi b hb
  · rw [if_neg h0]
    refine concatenate_pair_apply_right a x₁ x₂ h j hr hr i hi ?_
    have e := h.2.2
    simp only [List.map, List.sum_cons, List.sum_nil, dif_pos hr] at e
    have hlt := (j a).isLt
    rw [hi0, hs]
    omega

/-- INTERLEAVING ALONG THE LAST AXIS. `P` and `Q` of shape [a, b, c], each given a trailing unit axis, joined along it
    into [a, b, c, 2] and flattened to [a, b, 2c]: entry `x` of a row is entry `x / 2` of `P`'s row when `x` is even and
    of `Q`'s row when `x` is odd. -/
theorem interleave_last_apply {a b c c2 : ℕ} (hc : c2 = c * 2) (P Q : (⟨3, ![a, b, c]⟩ : Shape).Idx → α)
    (h1 : (⟨3, ![a, b, c]⟩ : Shape).ShapeCasts ⟨4, ![a, b, c, 1]⟩)
    (hcat : Shape.Concatenates [⟨4, ![a, b, c, 1]⟩, ⟨4, ![a, b, c, 1]⟩] ⟨4, ![a, b, c, 2]⟩ 3)
    (h2 : (⟨4, ![a, b, c, 2]⟩ : Shape).ShapeCasts ⟨3, ![a, b, c2]⟩)
    (p : Fin a) (q : Fin b) (x : Fin c2) :
    shapeCast ⟨3, ![a, b, c2]⟩ (concatenate ⟨4, ![a, b, c, 2]⟩ 3
        [⟨⟨4, ![a, b, c, 1]⟩, shapeCast ⟨4, ![a, b, c, 1]⟩ P h1⟩, ⟨⟨4, ![a, b, c, 1]⟩, shapeCast ⟨4, ![a, b, c, 1]⟩ Q h1⟩] hcat) h2 (ix3 p q x)
      = if x.val % 2 = 0 then P (ix3 p q ⟨x.val / 2, by omega⟩) else Q (ix3 p q ⟨x.val / 2, by omega⟩) := by
  have hk : x.val / 2 < c := by omega
  have hd : x.val % 2 < 2 := by omega
  -- the flattening reads (p, q, x) at (p, q, x / 2, x % 2): the same row-major position
  refine (shapeCast_apply _ h2 (ix3 p q x) (ix4 p q ⟨x.val / 2, hk⟩ ⟨x.val % 2, hd⟩) ?_).trans ?_
  · rw [Shape.rowMajor_val_four, Shape.rowMajor_val_three]
    show ((p.val * b + q.val) * c + x.val / 2) * 2 + x.val % 2 = (p.val * b + q.val) * c2 + x.val
    subst hc
    rw [← Nat.mul_assoc]
    omega
  -- the join picks the piece by the last coordinate
  refine (concatenate_unit_pair_apply (t := ⟨4, ![a, b, c, 2]⟩) (s := ⟨4, ![a, b, c, 1]⟩) 3 _ _ hcat _ rfl rfl (ix4 p q ⟨x.val / 2, hk⟩ (0 : Fin 1)) ?_).trans ?_
  · intro bb hb
    match bb, hb with
    | ⟨0, _⟩, _ => rfl
    | ⟨1, _⟩, _ => rfl
    | ⟨2, _⟩, _ => rfl
    | ⟨3, _⟩, hb => exact absurd rfl hb
  -- and the trailing unit axis is no change of position
  have eP : ∀ R : (⟨3, ![a, b, c]⟩ : Shape).Idx → α,
      shapeCast ⟨4, ![a, b, c, 1]⟩ R h1 (ix4 p q ⟨x.val / 2, hk⟩ (0 : Fin 1)) = R (ix3 p q ⟨x.val / 2, hk⟩) := fun R =>
    shapeCast_apply R h1 _ _ (by
      rw [Shape.rowMajor_val_three, Shape.rowMajor_val_four]
      show (p.val * b + q.val) * c + x.val / 2 = ((p.val * b + q.val) * c + x.val / 2) * 1 + 0
      omega)
  show (if x.val % 2 = 0 then _ else _) = _
  rw [eP P, eP Q]

/-- INTERLEAVING ROWS. `R` and `S` of shape [a, b, c], each given a unit axis before the last, joined along it into
    [a, b, 2, c] and flattened to [a, 2b, c]: row `y` is row `y / 2` of `R` when `y` is even and of `S` when `y` is odd. -/
theorem interleave_rows_apply {a b b2 c : ℕ} (hb : b2 = b * 2) (R S : (⟨3, ![a, b, c]⟩ : Shape).Idx → α)
    (h1 : (⟨3, ![a, b, c]⟩ : Shape).ShapeCasts ⟨4, ![a, b, 1, c]⟩)
    (hcat : Shape.Concatenates [⟨4, ![a, b, 1, c]⟩, ⟨4, ![a, b, 1, c]⟩] ⟨4, ![a, b, 2, c]⟩ 2)
    (h2 : (⟨4, ![a, b, 2, c]⟩ : Shape).ShapeCasts ⟨3, ![a, b2, c]⟩)
    (p : Fin a) (y : Fin b2) (x : Fin c) :
    shapeCast ⟨3, ![a, b2, c]⟩ (concatenate ⟨4, ![a, b, 2, c]⟩ 2
        [⟨⟨4, ![a, b, 1, c]⟩, shapeCast ⟨4, ![a, b, 1, c]⟩ R h1⟩, ⟨⟨4, ![a, b, 1, c]⟩, shapeCast ⟨4, ![a, b, 1, c]⟩ S h1⟩] hcat) h2 (ix3 p y x)
      = if y.val % 2 = 0 then R (ix3 p ⟨y.val / 2, by omega⟩ x) else S (ix3 p ⟨y.val / 2, by omega⟩ x) := by
  have hk : y.val / 2 < b := by omega
  have hd : y.val % 2 < 2 := by omega
  refine (shapeCast_apply _ h2 (ix3 p y x) (ix4 p ⟨y.val / 2, hk⟩ ⟨y.val % 2, hd⟩ x) ?_).trans ?_
  · rw [Shape.rowMajor_val_four, Shape.rowMajor_val_three]
    show ((p.val * b + y.val / 2) * 2 + y.val % 2) * c + x.val = (p.val * b2 + y.val) * c + x.val
    have e : (p.val * b + y.val / 2) * 2 + y.val % 2 = p.val * b2 + y.val := by
      subst hb
      rw [← Nat.mul_assoc]
      omega
    rw [e]
  refine (concatenate_unit_pair_apply (t := ⟨4, ![a, b, 2, c]⟩) (s := ⟨4, ![a, b, 1, c]⟩) 2 _ _ hcat _ rfl rfl (ix4 p ⟨y.val / 2, hk⟩ (0 : Fin 1) x) ?_).trans ?_
  · intro bb hb'
    match bb, hb' with
    | ⟨0, _⟩, _ => rfl
    | ⟨1, _⟩, _ => rfl
    | ⟨2, _⟩, hb' => exact absurd rfl hb'
    | ⟨3, _⟩, _ => rfl
  have eR : ∀ T : (⟨3, ![a, b, c]⟩ : Shape).Idx → α,
      shapeCast ⟨4, ![a, b, 1, c]⟩ T h1 (ix4 p ⟨y.val / 2, hk⟩ (0 : Fin 1) x) = T (ix3 p ⟨y.val / 2, hk⟩ x) := fun T =>
    shapeCast_apply T h1 _ _ (by
      rw [Shape.rowMajor_val_three, Shape.rowMajor_val_four]
      show (p.val * b + y.val / 2) * c + x.val = ((p.val * b + y.val / 2) * 1 + 0) * c + x.val
      rw [Nat.mul_one, Nat.add_zero])
  show (if y.val % 2 = 0 then _ else _) = _
  rw [eR R, eR S]

end Idealize.ShloMosaic.Interleave
-- ==== Proof.BlockAt.lean ====
/-
  The output block read at an index, over the extended reals.

  At row p of a block: each chunk total is a plain sum over the chunk's 1024 columns, the eight of them added onto zero
  are the sum over all 8192 columns, so the row mean is the row's mean, the centred entries are the entries minus it, and
  the three centred totals and the total of squared differences are the row statistics of Proof/RowStats.lean. Column 0
  of the block at row p is the absolute correlation quotient of the two rows, column 1 their squared difference.
-/
import proofs.«151630_j5050881540163_2_alg».proof.Proof.Block
import proofs.«151630_j5050881540163_2_alg».proof.Proof.RowStats
import proofs.«151630_j5050881540163_2_alg».proof.Proof.LibColumn
import proofs.«151630_j5050881540163_2_alg».proof.Proof.LibRowReduce
import proofs.«151630_j5050881540163_2_alg».proof.Proof.LibInterleave
import Idealize.ShloMosaic.Lib.ValueIdx
import Idealize.ShloMosaic.PureOps.Ideal.Laws

noncomputable section

open scoped BigOperators
open Idealize.ShloMosaic Idealize.ShloMosaic.TcCoe Idealize.SL.Sem

namespace Cert.KernelIdeal.Block

open Cert.KernelIdeal Cert.KernelIdeal.Gen Idealize.ShloMosaic.ValueIdx Cert.RowStats

/-- Entry (p, k) of chunk q is entry (p, 1024 q + k) of the block. -/
theorem chunk_apply (x : Vec Ideal S256x8192 .f32) (q : Fin 8) (p : Fin 256) (k : Fin 1024) :
    chunk x q (ix2 p k) = x (ix2 p (col q k)) := by
  unfold chunk
  show x _ = x _
  congr 1
  funext a
  apply Fin.ext
  match a with
  | ⟨0, _⟩ =>
    show (k0_off1 (BitVec.ofNat 32 q.val)) 0 + 1 * p.val = p.val
    rw [k0_off1_eq q]
    show 0 + 1 * p.val = p.val
    omega
  | ⟨1, _⟩ =>
    show (k0_off1 (BitVec.ofNat 32 q.val)) 1 + 1 * k.val = 1024 * q.val + k.val
    rw [k0_off1_eq q]
    show 1024 * q.val + 1 * k.val = 1024 * q.val + k.val
    omega

/-- A chunk's row total at row p is the plain sum over the chunk's columns. -/
theorem rowTotal_apply (v : FVec Ideal S256x1024 .f32) (p : Fin 256) (u : Fin 1) :
    rowTotal v (ix2 p u) = ∑ k : Fin 1024, v (ix2 p k) := by
  unfold rowTotal
  rw [Cert.LibColumn.shapeCast_a_a1_apply]
  exact Cert.LibRowReduce.rowSum_apply v _ _ _ _ p

/-- The zero column is zero. -/
theorem zeroCol_apply (i : S256x1.Idx) : zeroCol (F := Ideal) i = 0 := by
  show Ideal.ofBits .f32 0x00000000#32 = 0
  exact Ideal.ofBits_zero_f32

/-- Eight chunk totals added onto zero, at row p: the sum over the chunks of the sums over their columns. -/
theorem total8_apply (f : Fin 8 → FVec Ideal S256x1024 .f32) (p : Fin 256) (u : Fin 1) :
    total8 f (ix2 p u) = ∑ q : Fin 8, ∑ k : Fin 1024, f q (ix2 p k) := by
  unfold total8
  simp only [addf_apply, rowTotal_apply, zeroCol_apply, zero_add, Fin.sum_univ_eight]

/-- The row mean at row p is the mean of row p. -/
theorem rowMean_apply (x : Vec Ideal S256x8192 .f32) (p : Fin 256) (u : Fin 1) :
    rowMean x (ix2 p u) = mean (row x p) := by
  unfold rowMean
  rw [mulf_apply, total8_apply]
  simp only [chunk_apply]
  rw [sum_chunks fun j => x (ix2 p j)]
  exact scale_eq_div _

/-- A centred chunk at (p, k): the block's entry minus the mean of its row. -/
theorem centred_apply (x : Vec Ideal S256x8192 .f32) (q : Fin 8) (p : Fin 256) (k : Fin 1024) :
    centred x q (ix2 p k) = x (ix2 p (col q k)) - mean (row x p) := by
  unfold centred
  rw [subf_apply, chunk_apply, Cert.LibColumn.broadcastTo_a1_ab_apply, rowMean_apply]

/-- The centred total of products at row p is the centred dot of the two rows. -/
theorem centredDot_apply (x y : Vec Ideal S256x8192 .f32) (p : Fin 256) (u : Fin 1) :
    centredDot x y (ix2 p u) = cdot (row x p) (row y p) := by
  unfold centredDot
  rw [total8_apply]
  simp only [mulf_apply, centred_apply]
  exact sum_chunks fun j => (x (ix2 p j) - mean (row x p)) * (y (ix2 p j) - mean (row y p))

/-- The total of squared differences at row p is the squared difference of the two rows. -/
theorem sqDiff_apply (x y : Vec Ideal S256x8192 .f32) (p : Fin 256) (u : Fin 1) :
    sqDiff x y (ix2 p u) = Cert.RowStats.sqDiff (row x p) (row y p) := by
  unfold sqDiff
  rw [total8_apply]
  simp only [mulf_apply, subf_apply, chunk_apply]
  exact sum_chunks fun j => (x (ix2 p j) - y (ix2 p j)) * (x (ix2 p j) - y (ix2 p j))

/-- The absolute correlation quotient at row p is that of the two rows. -/
theorem absCorr_apply (x y : Vec Ideal S256x8192 .f32) (p : Fin 256) (u : Fin 1) :
    absCorr x y (ix2 p u) = Cert.RowStats.absCorr (row x p) (row y p) := by
  show max (Ideal.div (centredDot x y (ix2 p u)) (Ideal.sqrt (centredDot x x (ix2 p u) * centredDot y y (ix2 p u))))
      (-Ideal.div (centredDot x y (ix2 p u)) (Ideal.sqrt (centredDot x x (ix2 p u) * centredDot y y (ix2 p u)))) = _
  rw [centredDot_apply, centredDot_apply, centredDot_apply]
  rfl

/-- The output block at (p, j): column 0 the absolute correlation quotient of rows p, column 1 their squared difference. -/
theorem blockOut_apply (x y : Vec Ideal S256x8192 .f32) (p : Fin 256) (j : Fin 2) :
    blockOut x y (ix2 p j)
      = if j.val = 0 then Cert.RowStats.absCorr (row x p) (row y p) else Cert.RowStats.sqDiff (row x p) (row y p) := by
  unfold blockOut
  rw [Idealize.ShloMosaic.Interleave.concatenate_unit_pair_apply (t := S256x2) (s := S256x1) 1 _ _ _ (ix2 p j) rfl rfl
    (ix2 p (0 : Fin 1)) (fun b hb => by
      match b, hb with
      | ⟨0, _⟩, _ => rfl
      | ⟨1, _⟩, hb => exact absurd rfl hb)]
  rw [absCorr_apply, sqDiff_apply]

end Cert.KernelIdeal.Block

end
-- ==== Proof.OutArray.lean ====
/-
  From the blocks to the whole output array.

  Grid point t reads rows 256 t … 256 t + 255 of the two argument arrays (all 8192 columns) and writes rows
  256 t … 256 t + 255 of the 4096 × 2 output. Row p of the block it reads is row 256 t + p of the array, so what it writes
  at (p, j) is the per-row result of row 256 t + p; the sixteen blocks cover the output (row r is in block r / 256), so the
  output array after the run is the per-row results of the two argument arrays.
-/
import proofs.«151630_j5050881540163_2_alg».proof.Proof.BlockAt
import Idealize.ShloMosaic.Lib.Pipeline.Value

noncomputable section

open Idealize.ShloMosaic Idealize.ShloMosaic.TcCoe Idealize.SL.Sem
open Idealize.ShloMosaic.Pipeline (Dat)

namespace Cert.KernelIdeal.OutArray

open Cert.KernelIdeal Cert.KernelIdeal.Gen Cert.KernelIdeal.Block Idealize.ShloMosaic.ValueIdx Cert.RowStats

variable (m : (ℓ : Loc nD τ sig) → Buf (Elt Ideal) ℓ) (ρ : Dev nD → PrngReg)

/-- At point t every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A block whose row p is row 256 T + p of the arrays holds, at (p, j), the per-row result of that row. -/
theorem block_eq (x0 x1 : Vec Ideal S256x8192 .f32) (A B : (⟨2, ![4096, 8192]⟩ : Shape).Idx → EReal) (T : ℕ)
    (h0 : ∀ (p : Fin 256) (k : Fin 8192) (r : Fin 4096), r.val = 256 * T + p.val → x0 (ix2 p k) = A (ix2 r k))
    (h1 : ∀ (p : Fin 256) (k : Fin 8192) (r : Fin 4096), r.val = 256 * T + p.val → x1 (ix2 p k) = B (ix2 r k))
    (p : Fin 256) (j : Fin 2) (r : Fin 4096) (q : Fin 2) (hr : r.val = 256 * T + p.val) (hq : q.val = j.val) :
    blockOut x0 x1 (ix2 p j) = perRow A B (ix2 r q) := by
  rw [blockOut_apply]
  have e0 : row x0 p = row A r := funext fun k => h0 p k r hr
  have e1 : row x1 p = row B r := funext fun k => h1 p k r hr
  rw [e0, e1]
  show _ = if q.val = 0 then _ else _
  rw [hq]

/-- Row p of the first input block at point t is row 256 t + p of the first argument array. -/
theorem iblk0_apply (c : Dev nD) (t : Fin cfg0.N) (p : Fin 256) (k : Fin 8192) (r : Fin 4096) (hr : r.val = 256 * t.val + p.val) :
    (iblk m c 0 t : Vec Ideal S256x8192 .f32) (ix2 p k) = V m c main_arg0 (ix2 r k) := by
  obtain ⟨e0, e1, -⟩ := idx_facts t
  unfold iblk
  rw [View.read_apply]
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 8192 + 1 * k.val = k.val; omega

/-- Row p of the second input block at point t is row 256 t + p of the second argument array. -/
theorem iblk1_apply (c : Dev nD) (t : Fin cfg0.N) (p : Fin 256) (k : Fin 8192) (r : Fin 4096) (hr : r.val = 256 * t.val + p.val) :
    (iblk m c 1 t : Vec Ideal S256x8192 .f32) (ix2 p k) = V m c main_arg1 (ix2 r k) := by
  obtain ⟨-, -, e2, e3, -⟩ := idx_facts t
  unfold iblk
  rw [View.read_apply]
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 256 + 1 * p.val = r.val; omega
  | ⟨1, _⟩ => show win0_1.index t (1 : Fin 2) * 8192 + 1 * k.val = k.val; omega

/-- What point t writes back is block t of the per-row results of the argument arrays as the region finds them. -/
theorem flushed_eq (c : Dev nD) (t : Fin cfg0.N) :
    (dats m 0 c).flushed 2 t
      = ((cfg0.win 2).blk t).view.read (Elt Ideal) (perRow (V m c main_arg0) (V m c main_arg1)) := by
  show (cfg0.win 2).cut (grid0.coords t) ((dats m 0 c).after 2 t) = _
  rw [after0_2]
  unfold outsAt0
  rw [found_eq]
  obtain ⟨-, -, -, -, e4, e5⟩ := idx_facts t
  funext y
  obtain ⟨p, j, rfl⟩ : ∃ (p : Fin 256) (j : Fin 2), y = ix2 p j := ⟨y 0, y 1, eq_ix2 y⟩
  have hp : p.val < 256 := p.isLt
  have ht : t.val < 16 := by have := t.isLt; have hN : cfg0.N = 16 := N_0; omega
  show blockOut (iblk m c 0 t) (iblk m c 1 t) (ix2 p j)
    = perRow (V m c main_arg0) (V m c main_arg1) (((cfg0.win 2).blk t).view.emb (ix2 p j))
  have hemb : ((cfg0.win 2).blk t).view.emb (ix2 p j) = ix2 (⟨256 * t.val + p.val, by omega⟩ : Fin 4096) j := by
    funext a; apply Fin.ext
    match a with
    | ⟨0, _⟩ => show win0_2.index t (0 : Fin 2) * 256 + 1 * p.val = 256 * t.val + p.val; omega
    | ⟨1, _⟩ => show win0_2.index t (1 : Fin 2) * 2 + 1 * j.val = j.val; omega
  rw [hemb]
  exact block_eq _ _ _ _ t.val (fun p k r hr => iblk0_apply m c t p k r hr) (fun p k r hr => iblk1_apply m c t p k r hr)
    p j _ j rfl rfl

/-- An index of the output array is in point t's block iff each coordinate is in the block's range on its axis. -/
theorem mem_blk (t : Fin cfg0.N) (i : S4096x2.Idx) :
    i ∈ ((cfg0.win 2).blk t).view.set
      ↔ ∀ a : Fin 2, win0_2.index t a * S256x2.size a ≤ (i a).val ∧ (i a).val < win0_2.index t a * S256x2.size a + S256x2.size a := by
  show i ∈ ((View.whole main_v0).slice (win0_2.rect t)).set ↔ _
  rw [View.set_slice_whole, Rect.mem_set_unit]
  exact Iff.rfl

/-- Every index of the output array is in the block of point (row / 256). -/
theorem cover (i : S4096x2.Idx) : ∃ t : Fin cfg0.N, (cfg0.win 2).flush t = true ∧ i ∈ ((cfg0.win 2).blk t).view.set := by
  have h0 : (i 0).val < 4096 := (i 0).isLt
  have h1 : (i 1).val < 2 := (i 1).isLt
  have hN : cfg0.N = 16 := N_0
  let t : Fin cfg0.N := ⟨(i 0).val / 256, by rw [hN]; omega⟩
  obtain ⟨-, -, -, -, e4, e5⟩ := idx_facts t
  have e4' : win0_2.index t (0 : Fin 2) = (i 0).val / 256 := e4
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 2 ≤ (i 1).val ∧ (i 1).val < win0_2.index t (1 : Fin 2) * 2 + 2
    omega

/-- The output array after the run: the per-row results of the two argument arrays. -/
theorem final (c : Dev nD) : (dats m 0 c).arrAt 2 cfg0.N = perRow (V m c main_arg0) (V m c main_arg1) :=
  (dats m 0 c).arrAt_eq_of_cover 2 _ (fun t _ => flushed_eq m c t) cover

end Cert.KernelIdeal.OutArray

end
-- ==== Proof.Tail.lean ====
/-
  The lines after the region: the loss from the output array.

  The program's last lines cut the two columns out of the 4096 × 2 output array, read each as a vector of 4096 entries,
  add each up from zero, divide the total of column 1 by 2^25 and the total of column 0 by 4096, and return the quotient.
  On the per-row results of the two argument arrays, column 0 is the absolute correlation quotient of each row and column
  1 its squared difference, so the result is the loss.
-/
import proofs.«151630_j5050881540163_2_alg».proof.Proof.OutArray
import Idealize.ShloMosaic.Lib.StableHlo.Run
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Idealize.ShloMosaic.ValueIdx Cert.RowStats

/-- Column `q` of the output array as a vector: the slice [0:4096, q:q+1] read as 4096 entries. -/
def column {F : FTy → Type} [FloatOps F] (o : (⟨S4096x2, .f32⟩ : BufTy).Contents (Elt F)) (off : Fin 2 → Nat)
    (h : S4096x2.Slices off S4096x1) : (⟨S4096, .f32⟩ : BufTy).Contents (Elt F) :=
  shapeCast S4096 (extractStridedSlice S4096x1 off o h) shapeCasts_S4096x1_S4096

/-- The lines after the region, as one function of the output array. -/
def tailOf {F : FTy → Type} [FloatOps F] (o : (⟨S4096x2, .f32⟩ : BufTy).Contents (Elt F)) : (⟨S_, .f32⟩ : BufTy).Contents (Elt F) :=
  Host.divf
    (Host.divf (Host.reduceAdd (column o ![0, 1] slices_S4096x2_S4096x1_0_1) (constant S_ .f32 0x00000000#32) reducesTo_S4096_S_d0 h_S_)
      (constant S_ .f32 0x4C000000#32))
    (Host.divf (Host.reduceAdd (column o ![0, 0] slices_S4096x2_S4096x1_0_0) (constant S_ .f32 0x00000000#32) reducesTo_S4096_S_d0 h_S_)
      (constant S_ .f32 0x45800000#32))

variable (m : (ℓ : Loc nD τ sig) → Buf (Elt Ideal) ℓ) (ρ : Dev nD → PrngReg)

/-- After the region the output array's buffer holds the per-row results of the two argument arrays. -/
theorem array_after (c : Dev nD) :
    Pipeline.withArrays (cfgs 0).spec c (V0 m c) (fun w => (dats m 0 c).arrAt w (cfgs 0).N) (Proc.devRef .tc main_v0)
      = perRow (V m c main_arg0) (V m c main_arg1) :=
  (Pipeline.withArrays_arr spec0 launch0.win.arr_inj c _ _ 2).trans (Cert.KernelIdeal.OutArray.final m c)

/-- The program's result buffer after the last line: the tail of the per-row results. -/
theorem tail_eq (c : Dev nD) :
    Pipeline.afterTail₀ cfgs (dats m) 0 (V0 m) [hostOps1] c main_v9
      = tailOf (F := Ideal) (perRow (V m c main_arg0) (V m c main_arg1)) := by
  unfold Pipeline.afterTail₀
  show StableHlo.after hostOps1 _ (Proc.devRef .tc main_v9) = _
  after_results
  rw [array_after m c]
  rfl

/-- Entry r of column q of an array is its entry (r, q). -/
theorem column_apply (o : (⟨2, ![4096, 2]⟩ : Shape).Idx → EReal) (q : Fin 2) (h : S4096x2.Slices ![0, q.val] S4096x1) (r : Fin 4096) :
    column (F := Ideal) o ![0, q.val] h (ix1 r) = o (ix2 r q) := by
  unfold column
  refine (shapeCast_apply _ shapeCasts_S4096x1_S4096 (ix1 r) (ix2 r (0 : Fin 1)) ?_).trans ?_
  · rw [Shape.rowMajor_val_two, Shape.rowMajor_val_one]
    show r.val * 1 + 0 = r.val
    omega
  · exact Idealize.ShloMosaic.ValueIdx.slice2_axis1_apply q.val o h r (0 : Fin 1) q (by show q.val = q.val + 0; omega)

/-- The host's sum of a vector from the zero word is the plain sum over its entries. -/
theorem total_apply (v : (⟨1, ![4096]⟩ : Shape).Idx → EReal) (i : S_.Idx) :
    Host.reduceAdd (F := Ideal) (s := S4096) (φ := .f32) v (constant S_ .f32 0x00000000#32) reducesTo_S4096_S_d0 h_S_ i
      = ∑ r : Fin 4096, v (ix1 r) := by
  simp only [Host.reduceAdd, Ideal.hostReduceAdd_def]
  rw [Ideal.hostReduceAdd_total reducesTo_S4096_S_d0 (fun b => b.elim0) v _ i, sum_idx1]
  show Ideal.ofBits .f32 0x00000000#32 + _ = _
  rw [Ideal.ofBits_zero_f32, zero_add]

/-- The tail of the per-row results is the loss. -/
theorem tailOf_perRow (A B : (⟨2, ![4096, 8192]⟩ : Shape).Idx → EReal) :
    tailOf (F := Ideal) (perRow A B) = fun _ => loss A B := by
  funext i
  show Ideal.div (Ideal.div (Host.reduceAdd (F := Ideal) (s := S4096) (φ := .f32) (column (F := Ideal) (perRow A B) ![0, 1] slices_S4096x2_S4096x1_0_1) (constant S_ .f32 0x00000000#32) reducesTo_S4096_S_d0 h_S_ i) (Ideal.ofBits .f32 0x4C000000#32))
    (Ideal.div (Host.reduceAdd (F := Ideal) (s := S4096) (φ := .f32) (column (F := Ideal) (perRow A B) ![0, 0] slices_S4096x2_S4096x1_0_0) (constant S_ .f32 0x00000000#32) reducesTo_S4096_S_d0 h_S_ i) (Ideal.ofBits .f32 0x45800000#32)) = _
  rw [total_apply, total_apply]
  have c1 : ∀ r : Fin 4096, column (F := Ideal) (perRow A B) ![0, 1] slices_S4096x2_S4096x1_0_1 (ix1 r) = sqDiff (row A r) (row B r) :=
    fun r => (column_apply (perRow A B) (1 : Fin 2) slices_S4096x2_S4096x1_0_1 r).trans (if_neg (show ¬ (1 : Fin 2).val = 0 by decide))
  have c0 : ∀ r : Fin 4096, column (F := Ideal) (perRow A B) ![0, 0] slices_S4096x2_S4096x1_0_0 (ix1 r) = absCorr (row A r) (row B r) :=
    fun r => (column_apply (perRow A B) (0 : Fin 2) slices_S4096x2_S4096x1_0_0 r).trans (if_pos (show (0 : Fin 2).val = 0 from rfl))
  simp only [c1, c0]
  rfl

/-- The result buffer is unscoped and is no window's array, so the run's post speaks of it. -/
theorem result_mem : main_v9 ∈ Pipeline.restRefs sig (cfgs 0).spec :=
  Pipeline.mem_restRefs_of main_v9 rfl (fun w => by fin_cases w <;> decide)

/-- The run, read: every weakly fair execution ends with the result at the loss of the two argument arrays and the
    arguments unchanged. -/
theorem run : θ_run defs (onTc (τ := τ) (main (F := Ideal))) ⟨m, fun _ => 0, ρ⟩ fun r => ∀ c : Dev nD,
      r.2.mem ((c.tc : Thread nD τ).loc main_v9)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 result_mem).trans ((tail_eq m c).trans (tailOf_perRow (V m c main_arg0) (V m c main_arg1))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.RefLoss.lean ====
/-
  The reference's result is the loss of the two argument arrays.

  Stage by stage, read at an index over the extended reals: the broadcast row mean at (r, j) is the mean of row r (the
  host's sum is the initial zero plus the plain sum, its division by the word of 8192 the division of the mean); the
  centred arrays at (r, j) are the entries minus it; the three row sums of products are the centred dots of the rows;
  the quotient, square root and absolute value give the absolute correlation quotient of rows r; its sum over the rows,
  over 4096, is the denominator. The sum over all 4096 × 8192 entries of the squared differences is the sum over the rows
  of each row's squared difference; over 2^25 it is the numerator.
-/
import proofs.«151630_j5050881540163_2_alg».proof.Proof.Gen.ReferenceIdeal.Read
import proofs.«151630_j5050881540163_2_alg».proof.Proof.RowStats
import Idealize.ShloMosaic.Lib.ValueIdx
import Idealize.ShloMosaic.PureOps.Ideal.Laws

noncomputable section

open scoped BigOperators

namespace Cert.ReferenceIdeal.RefLoss

open Cert.ReferenceIdeal Cert.ReferenceIdeal.Read Idealize.ShloMosaic Idealize.ShloMosaic.ValueIdx Cert.RowStats

/-- A 4096 × 8192 array of extended reals. -/
abbrev Arr := (⟨2, ![4096, 8192]⟩ : Shape).Idx → EReal

/-! ## The index maps of the layout stages, at coordinates -/

theorem idx_v4 (r : Fin 4096) (k : Fin 8192) : idx_main_v4 (ix1 r) k = ix2 r k := by
  funext a; match a with | ⟨0, _⟩ => rfl | ⟨1, _⟩ => rfl
theorem idx_v10 (r : Fin 4096) (k : Fin 8192) : idx_main_v10 (ix1 r) k = ix2 r k := by
  funext a; match a with | ⟨0, _⟩ => rfl | ⟨1, _⟩ => rfl
theorem idx_v17 (r : Fin 4096) (k : Fin 8192) : idx_main_v17 (ix1 r) k = ix2 r k := by
  funext a; match a with | ⟨0, _⟩ => rfl | ⟨1, _⟩ => rfl
theorem idx_v19 (r : Fin 4096) (k : Fin 8192) : idx_main_v19 (ix1 r) k = ix2 r k := by
  funext a; match a with | ⟨0, _⟩ => rfl | ⟨1, _⟩ => rfl
theorem idx_v21 (r : Fin 4096) (k : Fin 8192) : idx_main_v21 (ix1 r) k = ix2 r k := by
  funext a; match a with | ⟨0, _⟩ => rfl | ⟨1, _⟩ => rfl
theorem idx_v8 (r : Fin 4096) (j : Fin 8192) : idx_main_v5 (idx_main_v8 (ix2 r j)) = ix1 r := by
  funext a; match a with | ⟨0, _⟩ => rfl
theorem idx_v14 (r : Fin 4096) (j : Fin 8192) : idx_main_v11 (idx_main_v14 (ix2 r j)) = ix1 r := by
  funext a; match a with | ⟨0, _⟩ => rfl

/-! ## The stages at an index -/

/-- The broadcast mean of the first argument at (r, j) is the mean of its row r. -/
theorem v8_at (x0 : Arr) (r : Fin 4096) (j : Fin 8192) : val_main_v8 (F := Ideal) x0 (ix2 r j) = mean (row x0 r) := by
  rw [val_main_v8_apply, val_main_v7_apply, val_main_v5_apply, val_main_v6_apply, idx_v8, val_main_v4_apply]
  simp only [idx_v4]
  show Ideal.div (Ideal.ofBits .f32 0x00000000#32 + ∑ k : Fin 8192, x0 (ix2 r k)) (Ideal.ofBits .f32 0x46000000#32) = _
  rw [Ideal.ofBits_zero_f32, zero_add]
  rfl

/-- The broadcast mean of the second argument at (r, j) is the mean of its row r. -/
theorem v14_at (x1 : Arr) (r : Fin 4096) (j : Fin 8192) : val_main_v14 (F := Ideal) x1 (ix2 r j) = mean (row x1 r) := by
  rw [val_main_v14_apply, val_main_v13_apply, val_main_v11_apply, val_main_v12_apply, idx_v14, val_main_v10_apply]
  simp only [idx_v10]
  show Ideal.div (Ideal.ofBits .f32 0x00000000#32 + ∑ k : Fin 8192, x1 (ix2 r k)) (Ideal.ofBits .f32 0x46000000#32) = _
  rw [Ideal.ofBits_zero_f32, zero_add]
  rfl

/-- The centred first argument at (r, j). -/
theorem v9_at (x0 : Arr) (r : Fin 4096) (j : Fin 8192) :
    val_main_v9 (F := Ideal) x0 (ix2 r j) = x0 (ix2 r j) - mean (row x0 r) := by
  rw [val_main_v9_apply, v8_at]
  rfl

/-- The centred second argument at (r, j). -/
theorem v15_at (x1 : Arr) (r : Fin 4096) (j : Fin 8192) :
    val_main_v15 (F := Ideal) x1 (ix2 r j) = x1 (ix2 r j) - mean (row x1 r) := by
  rw [val_main_v15_apply, v14_at]
  rfl

/-- The row sum of the products of the centred arguments is the centred dot of the rows. -/
theorem v17_at (x0 x1 : Arr) (r : Fin 4096) : val_main_v17 (F := Ideal) x0 x1 (ix1 r) = cdot (row x0 r) (row x1 r) := by
  rw [val_main_v17_apply]
  simp only [idx_v17, val_main_v16_apply, v9_at, v15_at]
  show Ideal.ofBits .f32 0x00000000#32 + ∑ k : Fin 8192, (x0 (ix2 r k) - mean (row x0 r)) * (x1 (ix2 r k) - mean (row x1 r)) = _
  rw [Ideal.ofBits_zero_f32, zero_add]
  rfl

/-- The row sum of the squares of the centred first argument. -/
theorem v19_at (x0 : Arr) (r : Fin 4096) : val_main_v19 (F := Ideal) x0 (ix1 r) = cdot (row x0 r) (row x0 r) := by
  rw [val_main_v19_apply]
  simp only [idx_v19, val_main_v18_apply, v9_at]
  show Ideal.ofBits .f32 0x00000000#32 + ∑ k : Fin 8192, (x0 (ix2 r k) - mean (row x0 r)) * (x0 (ix2 r k) - mean (row x0 r)) = _
  rw [Ideal.ofBits_zero_f32, zero_add]
  rfl

/-- The row sum of the squares of the centred second argument. -/
theorem v21_at (x1 : Arr) (r : Fin 4096) : val_main_v21 (F := Ideal) x1 (ix1 r) = cdot (row x1 r) (row x1 r) := by
  rw [val_main_v21_apply]
  simp only [idx_v21, val_main_v20_apply, v15_at]
  show Ideal.ofBits .f32 0x00000000#32 + ∑ k : Fin 8192, (x1 (ix2 r k) - mean (row x1 r)) * (x1 (ix2 r k) - mean (row x1 r)) = _
  rw [Ideal.ofBits_zero_f32, zero_add]
  rfl

/-- The absolute value of the quotient at row r is the absolute correlation quotient of the rows. -/
theorem v25_at (x0 x1 : Arr) (r : Fin 4096) : val_main_v25 (F := Ideal) x0 x1 (ix1 r) = absCorr (row x0 r) (row x1 r) := by
  rw [val_main_v25_apply, val_main_v24_apply, val_main_v23_apply, val_main_v22_apply, v17_at, v19_at, v21_at]
  rfl

/-- The sum of the squared differences over every entry is the sum over the rows of each row's. -/
theorem v2_at (x0 x1 : Arr) (i : S_.Idx) :
    val_main_v2 (F := Ideal) x0 x1 i = ∑ r : Fin 4096, sqDiff (row x0 r) (row x1 r) := by
  rw [val_main_v2_apply]
  show Ideal.ofBits .f32 0x00000000#32 + ∑ j : (⟨2, ![4096, 8192]⟩ : Shape).Idx, (x0 j - x1 j) * (x0 j - x1 j) = _
  rw [Ideal.ofBits_zero_f32, zero_add, sum_idx2]
  rfl

/-- The sum over the rows of the absolute correlation quotients. -/
theorem v26_at (x0 x1 : Arr) (i : S_.Idx) :
    val_main_v26 (F := Ideal) x0 x1 i = ∑ r : Fin 4096, absCorr (row x0 r) (row x1 r) := by
  rw [val_main_v26_apply]
  show Ideal.ofBits .f32 0x00000000#32 + ∑ j : (⟨1, ![4096]⟩ : Shape).Idx, val_main_v25 (F := Ideal) x0 x1 j = _
  rw [Ideal.ofBits_zero_f32, zero_add, sum_idx1]
  simp only [v25_at]

/-- The reference's result: the loss. -/
theorem result_eq (x0 x1 : Arr) : val_main_v28 (F := Ideal) x0 x1 = fun _ => loss x0 x1 := by
  funext i
  rw [val_main_v28_apply, val_main_v3_apply, val_main_v27_apply, v2_at, v26_at]
  rfl

end Cert.ReferenceIdeal.RefLoss

end
-- ==== Proof.lean ====
/-
  The claim: the kernel against its reference, over the extended reals.

  Both programs compute, from two 4096 × 8192 arrays, the mean squared difference of the arrays divided by the mean over
  the rows of the absolute correlation quotient of the two rows. The kernel does it row block by row block, each row in
  eight chunks, with the row means taken by a product with 2^-13; the reference over whole arrays, with the means taken by
  a division by 8192. On the extended reals a product with 2^-13 is the division by 8192, and sums regroup freely, so the
  two results are one function of the arguments (Proof/RowStats.lean `loss`): the kernel's by Proof/Block.lean (what a grid
  point stores), Proof/BlockAt.lean (that block at an index), Proof/OutArray.lean (the sixteen blocks cover the output
  array) and Proof/Tail.lean (the lines after the region); the reference's by Proof/RefLoss.lean. No finiteness of the
  inputs is used. The idealization rewrote nothing, so the preservation conjunct is trivial; the kernel's two frames are
  the generated ones, the reference's frame is its run with the result dropped.
-/
import proofs.«151630_j5050881540163_2_alg».proof.Defs
import proofs.«151630_j5050881540163_2_alg».proof.Proof.Gen.Kernel
import proofs.«151630_j5050881540163_2_alg».proof.Proof.Gen.Kernel.Skeleton
import proofs.«151630_j5050881540163_2_alg».proof.Proof.Gen.Kernel.Launch
import proofs.«151630_j5050881540163_2_alg».proof.Proof.Gen.Kernel.Points
import proofs.«151630_j5050881540163_2_alg».proof.Proof.Gen.Kernel.Frame
import proofs.«151630_j5050881540163_2_alg».proof.Proof.Gen.KernelIdeal
import proofs.«151630_j5050881540163_2_alg».proof.Proof.Gen.KernelIdeal.Skeleton
import proofs.«151630_j5050881540163_2_alg».proof.Proof.Gen.KernelIdeal.Launch
import proofs.«151630_j5050881540163_2_alg».proof.Proof.Gen.KernelIdeal.Points
import proofs.«151630_j5050881540163_2_alg».proof.Proof.Gen.KernelIdeal.Frame
import proofs.«151630_j5050881540163_2_alg».proof.Proof.Gen.ReferenceIdeal
import proofs.«151630_j5050881540163_2_alg».proof.Proof.Gen.Pre_finite_inputs
import proofs.«151630_j5050881540163_2_alg».proof.Proof.Gen.ReferenceIdeal.Run
import proofs.«151630_j5050881540163_2_alg».proof.Proof.Gen.ReferenceIdeal.Read
import proofs.«151630_j5050881540163_2_alg».proof.Proof.Tail
import proofs.«151630_j5050881540163_2_alg».proof.Proof.RefLoss
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the loss of the argument arrays, which agree. -/
theorem algebraic : Cert.algebraic_KernelIdeal_ReferenceIdeal := by
  intro m ρ m' ρ' _ hagree
  refine ⟨fun c => fun _ => Cert.RowStats.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefLoss.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
